-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x256 : Shape := ⟨3, ![64, 4096, 256]⟩
abbrev S20x256 : Shape := ⟨2, ![20, 256]⟩
abbrev S_ : Shape := ⟨0, ![]⟩

class Facts : Prop where
  bcast_S_S64x4096x256 : S_.BroadcastsInDim S64x4096x256 (![] : Fin 0 → Fin S64x4096x256.rank)
  reducesTo_S64x4096x256_S_d0_1_2 : S64x4096x256.ReducesTo [0, 1, 2] S_
  h_S_ : 0 < S_.numel
  bcast_S_S20x256 : S_.BroadcastsInDim S20x256 (![] : Fin 0 → Fin S20x256.rank)
  reducesTo_S20x256_S_d0_1 : S20x256.ReducesTo [0, 1] S_

variable [Facts]

def fn {F : FTy → Type} [FloatOps F] (main_arg0 : FVec F S64x4096x256 .f32) (main_arg1 : FVec F S20x256 .f32) : IVec S_ 1 :=
  let main_v0 : FVec F S64x4096x256 .f32 := Host.absf main_arg0
  let main_cst : FVec F S_ .f32 := constant S_ .f32 0x7F800000#32
  let main_v1 : FVec F S64x4096x256 .f32 := broadcastInDim S64x4096x256 ![] bcast_S_S64x4096x256 main_cst
  let main_v2 : IVec S64x4096x256 1 := cmpf .olt main_v0 main_v1
  let main_c : IVec S_ 1 := constantI S_ 1 1#1
  let main_v3 : IVec S_ 1 := (fun x v => Host.reduce IntOp.andi x v reducesTo_S64x4096x256_S_d0_1_2 h_S_) main_v2 main_c
  let main_v4 : FVec F S20x256 .f32 := Host.absf main_arg1
  let main_cst_0 : FVec F S_ .f32 := constant S_ .f32 0x7F800000#32
  let main_v5 : FVec F S20x256 .f32 := broadcastInDim S20x256 ![] bcast_S_S20x256 main_cst_0
  let main_v6 : IVec S20x256 1 := cmpf .olt main_v4 main_v5
  let main_c_1 : IVec S_ 1 := constantI S_ 1 1#1
  let main_v7 : IVec S_ 1 := (fun x v => Host.reduce IntOp.andi x v reducesTo_S20x256_S_d0_1 h_S_) main_v6 main_c_1
  let main_v8 : IVec S_ 1 := andi main_v3 main_v7
  main_v8
-- ==== Kernel.lean ====
abbrev S64x4096x256 : Shape := ⟨3, ![64, 4096, 256]⟩
abbrev S20x256 : Shape := ⟨2, ![20, 256]⟩
abbrev S64x20x256 : Shape := ⟨3, ![64, 20, 256]⟩
abbrev S2x4096x256 : Shape := ⟨3, ![2, 4096, 256]⟩
abbrev S2x20x256 : Shape := ⟨3, ![2, 20, 256]⟩
abbrev S4096x256 : Shape := ⟨2, ![4096, 256]⟩
abbrev S1x4096x256 : Shape := ⟨3, ![1, 4096, 256]⟩
abbrev S512x256 : Shape := ⟨2, ![512, 256]⟩
abbrev S20x4096 : Shape := ⟨2, ![20, 4096]⟩
abbrev S20 : Shape := ⟨1, ![20]⟩
abbrev S20x1 : Shape := ⟨2, ![20, 1]⟩
abbrev S1x20x256 : Shape := ⟨3, ![1, 20, 256]⟩

abbrev nBuf : Space → Nat
  | .hbm => 3
  | .vmem => 6
  | .smem => 0
  | _ => 0

abbrev bufTy : (tb : Table) → Fin (tcTables nBuf tb) → BufTy
  | .hbm, ⟨0, _⟩ => ⟨S64x4096x256, .f32⟩
  | .hbm, ⟨1, _⟩ => ⟨S20x256, .f32⟩
  | .hbm, ⟨2, _⟩ => ⟨S64x20x256, .f32⟩
  | .local _ .vmem, ⟨0, _⟩ => ⟨S20x256, .f32⟩
  | .local _ .vmem, ⟨1, _⟩ => ⟨S2x4096x256, .f32⟩
  | .local _ .vmem, ⟨2, _⟩ => ⟨S2x4096x256, .f32⟩
  | .local _ .vmem, ⟨3, _⟩ => ⟨S2x20x256, .f32⟩
  | .local _ .vmem, ⟨4, _⟩ => ⟨S2x20x256, .f32⟩
  | .local _ .vmem, ⟨5, _⟩ => ⟨S4096x256, .bf16⟩
  | _, _ => ⟨S64x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S20x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x20x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S20x256_S20x256_0_0 : ∀ a, (![0, 0] : Fin 2 → Nat) a + S20x256.size a ≤ S20x256.size a
  h_S20x256 : 0 < S20x256.numel
  bitsLt_bf16_f32 : FTy.bits .bf16 < FTy.bits .f32
  inb_S2x4096x256_S1x4096x256_0_0_0 : ∀ a, (![0, 0, 0] : Fin 3 → Nat) a + S1x4096x256.size a ≤ S2x4096x256.size a
  squeezes_S1x4096x256_S4096x256 : S1x4096x256.Squeezes S4096x256
  inb_S4096x256_S512x256_0_0 : ∀ a, (![0, 0] : Fin 2 → Nat) a + S512x256.size a ≤ S4096x256.size a
  h_S512x256 : 0 < S512x256.numel
  shapeCasts_S512x256_S512x256 : S512x256.ShapeCasts S512x256
  packedbf16_S4096x256_S512x256_0_0 : (Rect.unit (s := S4096x256) ![0, 0] S512x256.size inb_S4096x256_S512x256_0_0).PackedRows (EltTy.packing .bf16)
  inb_S4096x256_S512x256_512_0 : ∀ a, (![512, 0] : Fin 2 → Nat) a + S512x256.size a ≤ S4096x256.size a
  packedbf16_S4096x256_S512x256_512_0 : (Rect.unit (s := S4096x256) ![512, 0] S512x256.size inb_S4096x256_S512x256_512_0).PackedRows (EltTy.packing .bf16)
  inb_S4096x256_S512x256_1024_0 : ∀ a, (![1024, 0] : Fin 2 → Nat) a + S512x256.size a ≤ S4096x256.size a
  packedbf16_S4096x256_S512x256_1024_0 : (Rect.unit (s := S4096x256) ![1024, 0] S512x256.size inb_S4096x256_S512x256_1024_0).PackedRows (EltTy.packing .bf16)
  inb_S4096x256_S512x256_1536_0 : ∀ a, (![1536, 0] : Fin 2 → Nat) a + S512x256.size a ≤ S4096x256.size a
  packedbf16_S4096x256_S512x256_1536_0 : (Rect.unit (s := S4096x256) ![1536, 0] S512x256.size inb_S4096x256_S512x256_1536_0).PackedRows (EltTy.packing .bf16)
  inb_S4096x256_S512x256_2048_0 : ∀ a, (![2048, 0] : Fin 2 → Nat) a + S512x256.size a ≤ S4096x256.size a
  packedbf16_S4096x256_S512x256_2048_0 : (Rect.unit (s := S4096x256) ![2048, 0] S512x256.size inb_S4096x256_S512x256_2048_0).PackedRows (EltTy.packing .bf16)
  inb_S4096x256_S512x256_2560_0 : ∀ a, (![2560, 0] : Fin 2 → Nat) a + S512x256.size a ≤ S4096x256.size a
  packedbf16_S4096x256_S512x256_2560_0 : (Rect.unit (s := S4096x256) ![2560, 0] S512x256.size inb_S4096x256_S512x256_2560_0).PackedRows (EltTy.packing .bf16)
  inb_S4096x256_S512x256_3072_0 : ∀ a, (![3072, 0] : Fin 2 → Nat) a + S512x256.size a ≤ S4096x256.size a
  packedbf16_S4096x256_S512x256_3072_0 : (Rect.unit (s := S4096x256) ![3072, 0] S512x256.size inb_S4096x256_S512x256_3072_0).PackedRows (EltTy.packing .bf16)
  inb_S4096x256_S512x256_3584_0 : ∀ a, (![3584, 0] : Fin 2 → Nat) a + S512x256.size a ≤ S4096x256.size a
  packedbf16_S4096x256_S512x256_3584_0 : (Rect.unit (s := S4096x256) ![3584, 0] S512x256.size inb_S4096x256_S512x256_3584_0).PackedRows (EltTy.packing .bf16)
  inb_S4096x256_S4096x256_0_0 : ∀ a, (![0, 0] : Fin 2 → Nat) a + S4096x256.size a ≤ S4096x256.size a
  h_S4096x256 : 0 < S4096x256.numel
  reduces_S20x4096_S20 : S20x4096.Reduces [1] S20
  shapeCasts_S20_S20x1 : S20.ShapeCasts S20x1
  broadcasts_S20x1_S20x4096 : S20x1.Broadcasts S20x4096
  inb_S2x20x256_S1x20x256_0_0_0 : ∀ a, (![0, 0, 0] : Fin 3 → Nat) a + S1x20x256.size a ≤ S2x20x256.size a
  h_S1x20x256 : 0 < S1x20x256.numel
  shapeCasts_S1x20x256_S20x256 : S1x20x256.ShapeCasts S20x256
  shapeCasts_S20x256_S1x20x256 : S20x256.ShapeCasts S1x20x256
  inb_S2x4096x256_S1x4096x256_1_0_0 : ∀ a, (![1, 0, 0] : Fin 3 → Nat) a + S1x4096x256.size a ≤ S2x4096x256.size a
  inb_S2x20x256_S1x20x256_1_0_0 : ∀ a, (![1, 0, 0] : Fin 3 → Nat) a + S1x20x256.size a ≤ S2x20x256.size a
  dot_S20x256_S4096x256_S20x4096_1_1_0_0_n_n_wf : DotDims.WF S20x256 S4096x256 S20x4096 [1] [1] [0] [0] [] []
  dot_S20x4096_S4096x256_S20x256_1_0_0_1_n_n_wf : DotDims.WF S20x4096 S4096x256 S20x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S20x256.size a ≤ S20x256.size a
  hwx0_0 : ∀ i : grid0.Coords, EltTy.bits .f32 = 32 ∨ (Rect.block (s := S20x256) S20x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x4096x256.size a ≤ S64x4096x256.size a
  hwx0_1 : ∀ i : grid0.Coords, EltTy.bits .f32 = 32 ∨ (Rect.block (s := S64x4096x256) S2x4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x20x256.size a ≤ S64x20x256.size a
  hwx0_2 : ∀ i : grid0.Coords, EltTy.bits .f32 = 32 ∨ (Rect.block (s := S64x20x256) S2x20x256.size (cc0_transform_2 i) (hinb0_2 i)).WholeWords (EltTy.packing .f32)

variable [Facts₀]

def dot_S20x256_S4096x256_S20x4096_1_1_0_0_n_n : DotDims S20x256 S4096x256 S20x4096 where
  lhsContracting := [1]
  rhsContracting := [1]
  lhsNonContracting := [0]
  rhsNonContracting := [0]
  lhsBatch := []
  rhsBatch := []
  wf := dot_S20x256_S4096x256_S20x4096_1_1_0_0_n_n_wf
def dot_S20x4096_S4096x256_S20x256_1_0_0_1_n_n : DotDims S20x4096 S4096x256 S20x256 where
  lhsContracting := [1]
  rhsContracting := [0]
  lhsNonContracting := [0]
  rhsNonContracting := [1]
  lhsBatch := []
  rhsBatch := []
  wf := dot_S20x4096_S4096x256_S20x256_1_0_0_1_n_n_wf

abbrev win0_0 : Pipeline.Window sig grid0 :=
  Pipeline.Window.ofSpec (Memref.whole main_arg1) S20x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x20x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x4096x256 : Shape := ⟨3, ![64, 4096, 256]⟩
abbrev S20x256 : Shape := ⟨2, ![20, 256]⟩
abbrev S64x4096x20 : Shape := ⟨3, ![64, 4096, 20]⟩
abbrev S64x20x4096 : Shape := ⟨3, ![64, 20, 4096]⟩
abbrev S_ : Shape := ⟨0, ![]⟩
abbrev S64x20 : Shape := ⟨2, ![64, 20]⟩
abbrev S64x20x1 : Shape := ⟨3, ![64, 20, 1]⟩
abbrev S64x20x256 : Shape := ⟨3, ![64, 20, 256]⟩

abbrev nBuf : Space → Nat
  | .hbm => 19
  | .vmem => 0
  | .smem => 0
  | _ => 0

abbrev bufTy : (tb : Table) → Fin (tcTables nBuf tb) → BufTy
  | .hbm, ⟨0, _⟩ => ⟨S64x4096x256, .f32⟩
  | .hbm, ⟨1, _⟩ => ⟨S20x256, .f32⟩
  | .hbm, ⟨2, _⟩ => ⟨S64x4096x20, .f32⟩
  | .hbm, ⟨3, _⟩ => ⟨S64x20x4096, .f32⟩
  | .hbm, ⟨4, _⟩ => ⟨S_, .f32⟩
  | .hbm, ⟨5, _⟩ => ⟨S64x20, .f32⟩
  | .hbm, ⟨6, _⟩ => ⟨S_, .f32⟩
  | .hbm, ⟨7, _⟩ => ⟨S64x20, .f32⟩
  | .hbm, ⟨8, _⟩ => ⟨S64x20, .f32⟩
  | .hbm, ⟨9, _⟩ => ⟨S64x20x1, .f32⟩
  | .hbm, ⟨10, _⟩ => ⟨S64x20x4096, .f32⟩
  | .hbm, ⟨11, _⟩ => ⟨S64x20x4096, .f32⟩
  | .hbm, ⟨12, _⟩ => ⟨S64x20x4096, .f32⟩
  | .hbm, ⟨13, _⟩ => ⟨S_, .f32⟩
  | .hbm, ⟨14, _⟩ => ⟨S64x20, .f32⟩
  | .hbm, ⟨15, _⟩ => ⟨S64x20x1, .f32⟩
  | .hbm, ⟨16, _⟩ => ⟨S64x20x4096, .f32⟩
  | .hbm, ⟨17, _⟩ => ⟨S64x20x4096, .f32⟩
  | .hbm, ⟨18, _⟩ => ⟨S64x20x256, .f32⟩
  | _, _ => ⟨S64x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  transposes_S64x4096x20_S64x20x4096_0_2_1 : S64x4096x20.Transposes [0, 2, 1] S64x20x4096
  reducesTo_S64x20x4096_S64x20_d2 : S64x20x4096.ReducesTo [2] S64x20
  h_S_ : 0 < S_.numel
  bcast_S_S64x20 : S_.BroadcastsInDim S64x20 (![] : Fin 0 → Fin S64x20.rank)
  bcast_S64x20_S64x20x1_0_1 : S64x20.BroadcastsInDim S64x20x1 (![0, 1] : Fin 2 → Fin S64x20x1.rank)
  bcast_S64x20x1_S64x20x4096_0_1_2 : S64x20x1.BroadcastsInDim S64x20x4096 (![0, 1, 2] : Fin 3 → Fin S64x20x4096.rank)
  dot_S64x4096x256_S20x256_S64x4096x20_2_1_01_0_n_n_wf : DotDims.WF S64x4096x256 S20x256 S64x4096x20 [2] [1] [0, 1] [0] [] []
  dot_S64x20x4096_S64x4096x256_S64x20x256_2_1_1_2_0_0_wf : DotDims.WF S64x20x4096 S64x4096x256 S64x20x256 [2] [1] [1] [2] [0] [0]

variable [Facts₀]

def dot_S64x4096x256_S20x256_S64x4096x20_2_1_01_0_n_n : DotDims S64x4096x256 S20x256 S64x4096x20 where
  lhsContracting := [2]
  rhsContracting := [1]
  lhsNonContracting := [0, 1]
  rhsNonContracting := [0]
  lhsBatch := []
  rhsBatch := []
  wf := dot_S64x4096x256_S20x256_S64x4096x20_2_1_01_0_n_n_wf
def dot_S64x20x4096_S64x4096x256_S64x20x256_2_1_1_2_0_0 : DotDims S64x20x4096 S64x4096x256 S64x20x256 where
  lhsContracting := [2]
  rhsContracting := [1]
  lhsNonContracting := [1]
  rhsNonContracting := [2]
  lhsBatch := [0]
  rhsBatch := [0]
  wf := dot_S64x20x4096_S64x4096x256_S64x20x256_2_1_1_2_0_0_wf

class Facts : Prop extends Facts₀ where

variable [Facts]
-- ==== Proof.AttnFrameBits.lean ====
/-
  The frame of the attention-pooling kernel, for any float instance.

  One grid point handles two batch entries. For each entry g the body copies the entry's 4096 x 256 slab of the
  patch block, eight chunks of 512 rows at a time and rounded to bf16, into the scratch buffer; reads the scratch back
  whole; and stores, into row g of the output block, the value computed from the codebook block and that scratch image.
  So after the body the output block is two pieces, one per entry, each a function of the codebook block and of
  the scratch image the entry's eight chunk stores leave (the second entry's stores overwrite the first's). The
  scratch image is named by its list of chunk pieces; what the pieces hold entry by entry is read in the value modules.
  The scratch buffer is part of the pipeline's scoped rest: the body takes it at any contents and gives it back at
  some contents, and every load of it that matters is covered by the stores before it.
-/
import proofs.«130082_j38568806318651_2_alg».proof.Proof.Gen.Kernel.Frame
import proofs.«130082_j38568806318651_2_alg».proof.Proof.Gen.Kernel.Skeleton
import Idealize.ShloMosaic.Lib.Pipeline.Frame
import Idealize.ShloMosaic.Lib.Exec.Geometry

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through -/

/-- The whole codebook block. -/
abbrev rA : Rect S20x256 := Rect.unit (s := S20x256) ![0, 0] S20x256.size inb_S20x256_S20x256_0_0
/-- Batch entry 0 and entry 1 of the patch block, -/
abbrev rB0 : Rect S2x4096x256 := Rect.unit (s := S2x4096x256) ![0, 0, 0] S1x4096x256.size inb_S2x4096x256_S1x4096x256_0_0_0
abbrev rB1 : Rect S2x4096x256 := Rect.unit (s := S2x4096x256) ![1, 0, 0] S1x4096x256.size inb_S2x4096x256_S1x4096x256_1_0_0
/-- the eight chunks of 512 rows of a 4096 x 256 slab, -/
abbrev rC0 : Rect S4096x256 := Rect.unit (s := S4096x256) ![0, 0] S512x256.size inb_S4096x256_S512x256_0_0
abbrev rC1 : Rect S4096x256 := Rect.unit (s := S4096x256) ![512, 0] S512x256.size inb_S4096x256_S512x256_512_0
abbrev rC2 : Rect S4096x256 := Rect.unit (s := S4096x256) ![1024, 0] S512x256.size inb_S4096x256_S512x256_1024_0
abbrev rC3 : Rect S4096x256 := Rect.unit (s := S4096x256) ![1536, 0] S512x256.size inb_S4096x256_S512x256_1536_0
abbrev rC4 : Rect S4096x256 := Rect.unit (s := S4096x256) ![2048, 0] S512x256.size inb_S4096x256_S512x256_2048_0
abbrev rC5 : Rect S4096x256 := Rect.unit (s := S4096x256) ![2560, 0] S512x256.size inb_S4096x256_S512x256_2560_0
abbrev rC6 : Rect S4096x256 := Rect.unit (s := S4096x256) ![3072, 0] S512x256.size inb_S4096x256_S512x256_3072_0
abbrev rC7 : Rect S4096x256 := Rect.unit (s := S4096x256) ![3584, 0] S512x256.size inb_S4096x256_S512x256_3584_0
/-- the whole slab, -/
abbrev rW : Rect S4096x256 := Rect.unit (s := S4096x256) ![0, 0] S4096x256.size inb_S4096x256_S4096x256_0_0
/-- and row 0 and row 1 of the output block. -/
abbrev rO0 : Rect S2x20x256 := Rect.unit (s := S2x20x256) ![0, 0, 0] S1x20x256.size inb_S2x20x256_S1x20x256_0_0_0
abbrev rO1 : Rect S2x20x256 := Rect.unit (s := S2x20x256) ![1, 0, 0] S1x20x256.size inb_S2x20x256_S1x20x256_1_0_0

/-! ## What the body leaves in the scratch buffer and in the output block -/

/-- Batch entry 0 of the patch block as a 4096 x 256 array (the unit axis dropped), and entry 1. -/
def slab0 (x1 : Vec F S2x4096x256 .f32) : Vec F S4096x256 .f32 :=
  shapeCast S4096x256 (View.ld x1 rB0) squeezes_S1x4096x256_S4096x256.numel_eq
def slab1 (x1 : Vec F S2x4096x256 .f32) : Vec F S4096x256 .f32 :=
  shapeCast S4096x256 (View.ld x1 rB1) squeezes_S1x4096x256_S4096x256.numel_eq

/-- The chunk stores of entry 0, last first: chunk k of the slab, rounded, into rows 512 k .. 512 k + 511. -/
def scrL0 (x1 : Vec F S2x4096x256 .f32) : List (View.Piece (Elt F) S4096x256 .bf16) :=
  [⟨rC7, k0_pay11 (k0_pay10 (View.ld (slab0 x1) rC7))⟩, ⟨rC6, k0_pay9 (View.ld (slab0 x1) rC6)⟩,
   ⟨rC5, k0_pay8 (View.ld (slab0 x1) rC5)⟩, ⟨rC4, k0_pay7 (View.ld (slab0 x1) rC4)⟩,
   ⟨rC3, k0_pay6 (k0_pay5 (View.ld (slab0 x1) rC3))⟩, ⟨rC2, k0_pay4 (View.ld (slab0 x1) rC2)⟩,
   ⟨rC1, k0_pay3 (View.ld (slab0 x1) rC1)⟩, ⟨rC0, k0_pay2 (View.ld (slab0 x1) rC0)⟩]

/-- The chunk stores of entry 1, last first, over those of entry 0. -/
def scrL1 (x1 : Vec F S2x4096x256 .f32) : List (View.Piece (Elt F) S4096x256 .bf16) :=
  ⟨rC7, k0_pay20 (View.ld (slab1 x1) rC7)⟩ :: ⟨rC6, k0_pay19 (View.ld (slab1 x1) rC6)⟩ ::
  ⟨rC5, k0_pay18 (View.ld (slab1 x1) rC5)⟩ :: ⟨rC4, k0_pay17 (View.ld (slab1 x1) rC4)⟩ ::
  ⟨rC3, k0_pay16 (View.ld (slab1 x1) rC3)⟩ :: ⟨rC2, k0_pay15 (View.ld (slab1 x1) rC2)⟩ ::
  ⟨rC1, k0_pay14 (View.ld (slab1 x1) rC1)⟩ :: ⟨rC0, k0_pay13 (View.ld (slab1 x1) rC0)⟩ :: scrL0 x1

/-- The scratch image the whole-buffer load finds after entry 0's stores, and after entry 1's. -/
def scr0 (x1 : Vec F S2x4096x256 .f32) : Vec F S4096x256 .bf16 := fun j => View.canon (scrL0 x1) (rW.toLoadRect.idx j)
def scr1 (x1 : Vec F S2x4096x256 .f32) : Vec F S4096x256 .bf16 := fun j => View.canon (scrL1 x1) (rW.toLoadRect.idx j)

/-- The output block after the body: row 1 from the codebook block and entry 1's scratch image, over row 0 from the
    codebook block and entry 0's. -/
def out0_2 (x0 : Vec F S20x256 .f32) (x1 : Vec F S2x4096x256 .f32) : Vec F S2x20x256 .f32 :=
  View.canon [⟨rO1, k0_pay21 (k0_pay1 (View.ld x0 rA)) (scr1 x1)⟩, ⟨rO0, k0_pay12 (k0_pay1 (View.ld x0 rA)) (scr0 x1)⟩]

/-- The two row stores tile the output block, so they cover it. -/
theorem coverO (p1 : rO1.shape.Idx → Elt F .f32) (p0 : rO0.shape.Idx → Elt F .f32) (y : S2x20x256.Idx) :
    ∃ pc ∈ ([⟨rO1, p1⟩, ⟨rO0, p0⟩] : List (View.Piece (Elt F) S2x20x256 .f32)), y ∈ pc.1.set :=
  View.cover_of_tiled [⟨rO1, p1⟩, ⟨rO0, p0⟩] S1x20x256.size (by rfl) y

/-! ## The body's triple -/

set_option maxHeartbeats 4000000 in
/-- The kernel body on whole memrefs — the codebook's and the patch block's at read contents `x0`, `x1`, the
    output's and the scratch's at anything — runs to the continuation holding the two inputs as they were, the output
    block at `out0_2 x0 x1` and the scratch at some contents. -/
theorem sound_kernel (c : Dev nD) (E : Set ℕ) (i : grid0.Coords)
    (arg1 : Memref sig .tc .vmem S20x256 .f32) (harg1 : arg1.IsWhole) (arg2 : Memref sig .tc .vmem S2x4096x256 .f32) (harg2 : arg2.IsWhole)
    (arg3 : Memref sig .tc .vmem S2x20x256 .f32) (harg3 : arg3.IsWhole) (arg4 : Memref sig .tc .vmem S4096x256 .bf16) (harg4 : arg4.IsWhole)
    (x0 : Vec F S20x256 .f32) (x1 : Vec F S2x4096x256 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ (∃ d, owns (c : Thread nD τ) arg4 fullShare d)) -∗ K ⟨⟩))
      ⊢ wp frame (wpE (defs₀ (F := F)) Variants.none c none) E (cc0__attn_kernel i arg1 harg1 arg2 harg2 arg3 harg3 arg4 harg4) K := by
  simp only [cc0__attn_kernel_eq_skeleton]; unfold cc0__attn_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    -- the scratch images the two whole-buffer loads found are the canons of the chunk stores before them
    have h58 : sound_kernel.sl.v58 c arg2 arg4 f1 = scr0 (View.read (Elt F) arg2.view f1) :=
      View.readCov_eq_canon' arg4.view (scrL0 (View.read (Elt F) arg2.view f1)) rW.toLoadRect
    have h130 : sound_kernel.sl.v130 c arg2 arg4 f1 = scr1 (View.read (Elt F) arg2.view f1) :=
      View.readCov_eq_canon' arg4.view (scrL1 (View.read (Elt F) arg2.view f1)) rW.toLoadRect
    rw [View.read_writes_eq_canon _ _ _ (coverO _ _)]
    unfold out0_2
    rw [← h58, ← h130]
    rfl
  iexists _; iexists _; isplitr
  swap; · iexact H3
  ipureintro; rfl

/-! ## The pipeline's proof data -/

/-- The proof data of the one pipeline on core `c`: the arrays as the region finds them; after the body at point
    `t` each input's buffer at its block and the output's at `out0_2` of the two input blocks; the invariant the scoped
    rest (the scratch buffer at some contents) and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The invariant spelt out: the scratch buffer whole at some contents, and the generator register at some state. -/
theorem Phi_eq (c : Dev nD) (t : Fin (cfg0.N + 1)) :
    (dats m 0 c).Φ t = iprop((∃ d, owns (c : Thread nD τ) (Memref.whole cc0_scratch0) fullShare d) ∗ ∃ r, prngReg c r) := by
  show Pipeline.ΦA spec0 c = _
  unfold Pipeline.ΦA
  rw [scopedRest0_eq]
  simp only [owns_whole]

/-- The body at any point: the inputs' memrefs hold their blocks, the scratch buffer comes out of the invariant and
    goes back into it, so `sound_kernel` applies; the generator register and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    after0_0, after0_1, after0_2, Phi_eq, Phi_eq]
  iintro ⟨⟨Hs, Hr⟩, Ho, ⟨%d0, H0⟩, ⟨%d1, H1⟩, ⟨%d2, H2⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [Hs]; · iexact Hs
  iintro ⟨H0, H1, H2, Hs⟩
  isplitl [Hs Hr]
  · isplitl [Hs]; · iexact Hs
    iexact Hr
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: the program runs to the end, faults nowhere, and leaves both argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Attn

end
-- ==== Proof.AttnFrameIdeal.lean ====
/-
  The frame of the attention-pooling kernel, for any float instance.

  One grid point handles two batch entries. For each entry g the body copies the entry's 4096 x 256 slab of the
  patch block, eight chunks of 512 rows at a time and rounded to bf16, into the scratch buffer; reads the scratch back
  whole; and stores, into row g of the output block, the value computed from the codebook block and that scratch image.
  So after the body the output block is two pieces, one per entry, each a function of the codebook block and of
  the scratch image the entry's eight chunk stores leave (the second entry's stores overwrite the first's). The
  scratch image is named by its list of chunk pieces; what the pieces hold entry by entry is read in the value modules.
  The scratch buffer is part of the pipeline's scoped rest: the body takes it at any contents and gives it back at
  some contents, and every load of it that matters is covered by the stores before it.
-/
import proofs.«130082_j38568806318651_2_alg».proof.Proof.Gen.KernelIdeal.Frame
import proofs.«130082_j38568806318651_2_alg».proof.Proof.Gen.KernelIdeal.Skeleton
import Idealize.ShloMosaic.Lib.Pipeline.Frame
import Idealize.ShloMosaic.Lib.Exec.Geometry

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through -/

/-- The whole codebook block. -/
abbrev rA : Rect S20x256 := Rect.unit (s := S20x256) ![0, 0] S20x256.size inb_S20x256_S20x256_0_0
/-- Batch entry 0 and entry 1 of the patch block, -/
abbrev rB0 : Rect S2x4096x256 := Rect.unit (s := S2x4096x256) ![0, 0, 0] S1x4096x256.size inb_S2x4096x256_S1x4096x256_0_0_0
abbrev rB1 : Rect S2x4096x256 := Rect.unit (s := S2x4096x256) ![1, 0, 0] S1x4096x256.size inb_S2x4096x256_S1x4096x256_1_0_0
/-- the eight chunks of 512 rows of a 4096 x 256 slab, -/
abbrev rC0 : Rect S4096x256 := Rect.unit (s := S4096x256) ![0, 0] S512x256.size inb_S4096x256_S512x256_0_0
abbrev rC1 : Rect S4096x256 := Rect.unit (s := S4096x256) ![512, 0] S512x256.size inb_S4096x256_S512x256_512_0
abbrev rC2 : Rect S4096x256 := Rect.unit (s := S4096x256) ![1024, 0] S512x256.size inb_S4096x256_S512x256_1024_0
abbrev rC3 : Rect S4096x256 := Rect.unit (s := S4096x256) ![1536, 0] S512x256.size inb_S4096x256_S512x256_1536_0
abbrev rC4 : Rect S4096x256 := Rect.unit (s := S4096x256) ![2048, 0] S512x256.size inb_S4096x256_S512x256_2048_0
abbrev rC5 : Rect S4096x256 := Rect.unit (s := S4096x256) ![2560, 0] S512x256.size inb_S4096x256_S512x256_2560_0
abbrev rC6 : Rect S4096x256 := Rect.unit (s := S4096x256) ![3072, 0] S512x256.size inb_S4096x256_S512x256_3072_0
abbrev rC7 : Rect S4096x256 := Rect.unit (s := S4096x256) ![3584, 0] S512x256.size inb_S4096x256_S512x256_3584_0
/-- the whole slab, -/
abbrev rW : Rect S4096x256 := Rect.unit (s := S4096x256) ![0, 0] S4096x256.size inb_S4096x256_S4096x256_0_0
/-- and row 0 and row 1 of the output block. -/
abbrev rO0 : Rect S2x20x256 := Rect.unit (s := S2x20x256) ![0, 0, 0] S1x20x256.size inb_S2x20x256_S1x20x256_0_0_0
abbrev rO1 : Rect S2x20x256 := Rect.unit (s := S2x20x256) ![1, 0, 0] S1x20x256.size inb_S2x20x256_S1x20x256_1_0_0

/-! ## What the body leaves in the scratch buffer and in the output block -/

/-- Batch entry 0 of the patch block as a 4096 x 256 array (the unit axis dropped), and entry 1. -/
def slab0 (x1 : Vec F S2x4096x256 .f32) : Vec F S4096x256 .f32 :=
  shapeCast S4096x256 (View.ld x1 rB0) squeezes_S1x4096x256_S4096x256.numel_eq
def slab1 (x1 : Vec F S2x4096x256 .f32) : Vec F S4096x256 .f32 :=
  shapeCast S4096x256 (View.ld x1 rB1) squeezes_S1x4096x256_S4096x256.numel_eq

/-- The chunk stores of entry 0, last first: chunk k of the slab, rounded, into rows 512 k .. 512 k + 511. -/
def scrL0 (x1 : Vec F S2x4096x256 .f32) : List (View.Piece (Elt F) S4096x256 .bf16) :=
  [⟨rC7, k0_pay11 (k0_pay10 (View.ld (slab0 x1) rC7))⟩, ⟨rC6, k0_pay9 (View.ld (slab0 x1) rC6)⟩,
   ⟨rC5, k0_pay8 (View.ld (slab0 x1) rC5)⟩, ⟨rC4, k0_pay7 (View.ld (slab0 x1) rC4)⟩,
   ⟨rC3, k0_pay6 (k0_pay5 (View.ld (slab0 x1) rC3))⟩, ⟨rC2, k0_pay4 (View.ld (slab0 x1) rC2)⟩,
   ⟨rC1, k0_pay3 (View.ld (slab0 x1) rC1)⟩, ⟨rC0, k0_pay2 (View.ld (slab0 x1) rC0)⟩]

/-- The chunk stores of entry 1, last first, over those of entry 0. -/
def scrL1 (x1 : Vec F S2x4096x256 .f32) : List (View.Piece (Elt F) S4096x256 .bf16) :=
  ⟨rC7, k0_pay20 (View.ld (slab1 x1) rC7)⟩ :: ⟨rC6, k0_pay19 (View.ld (slab1 x1) rC6)⟩ ::
  ⟨rC5, k0_pay18 (View.ld (slab1 x1) rC5)⟩ :: ⟨rC4, k0_pay17 (View.ld (slab1 x1) rC4)⟩ ::
  ⟨rC3, k0_pay16 (View.ld (slab1 x1) rC3)⟩ :: ⟨rC2, k0_pay15 (View.ld (slab1 x1) rC2)⟩ ::
  ⟨rC1, k0_pay14 (View.ld (slab1 x1) rC1)⟩ :: ⟨rC0, k0_pay13 (View.ld (slab1 x1) rC0)⟩ :: scrL0 x1

/-- The scratch image the whole-buffer load finds after entry 0's stores, and after entry 1's. -/
def scr0 (x1 : Vec F S2x4096x256 .f32) : Vec F S4096x256 .bf16 := fun j => View.canon (scrL0 x1) (rW.toLoadRect.idx j)
def scr1 (x1 : Vec F S2x4096x256 .f32) : Vec F S4096x256 .bf16 := fun j => View.canon (scrL1 x1) (rW.toLoadRect.idx j)

/-- The output block after the body: row 1 from the codebook block and entry 1's scratch image, over row 0 from the
    codebook block and entry 0's. -/
def out0_2 (x0 : Vec F S20x256 .f32) (x1 : Vec F S2x4096x256 .f32) : Vec F S2x20x256 .f32 :=
  View.canon [⟨rO1, k0_pay21 (k0_pay1 (View.ld x0 rA)) (scr1 x1)⟩, ⟨rO0, k0_pay12 (k0_pay1 (View.ld x0 rA)) (scr0 x1)⟩]

/-- The two row stores tile the output block, so they cover it. -/
theorem coverO (p1 : rO1.shape.Idx → Elt F .f32) (p0 : rO0.shape.Idx → Elt F .f32) (y : S2x20x256.Idx) :
    ∃ pc ∈ ([⟨rO1, p1⟩, ⟨rO0, p0⟩] : List (View.Piece (Elt F) S2x20x256 .f32)), y ∈ pc.1.set :=
  View.cover_of_tiled [⟨rO1, p1⟩, ⟨rO0, p0⟩] S1x20x256.size (by rfl) y

/-! ## The body's triple -/

set_option maxHeartbeats 4000000 in
/-- The kernel body on whole memrefs — the codebook's and the patch block's at read contents `x0`, `x1`, the
    output's and the scratch's at anything — runs to the continuation holding the two inputs as they were, the output
    block at `out0_2 x0 x1` and the scratch at some contents. -/
theorem sound_kernel (c : Dev nD) (E : Set ℕ) (i : grid0.Coords)
    (arg1 : Memref sig .tc .vmem S20x256 .f32) (harg1 : arg1.IsWhole) (arg2 : Memref sig .tc .vmem S2x4096x256 .f32) (harg2 : arg2.IsWhole)
    (arg3 : Memref sig .tc .vmem S2x20x256 .f32) (harg3 : arg3.IsWhole) (arg4 : Memref sig .tc .vmem S4096x256 .bf16) (harg4 : arg4.IsWhole)
    (x0 : Vec F S20x256 .f32) (x1 : Vec F S2x4096x256 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ (∃ d, owns (c : Thread nD τ) arg4 fullShare d)) -∗ K ⟨⟩))
      ⊢ wp frame (wpE (defs₀ (F := F)) Variants.none c none) E (cc0__attn_kernel i arg1 harg1 arg2 harg2 arg3 harg3 arg4 harg4) K := by
  simp only [cc0__attn_kernel_eq_skeleton]; unfold cc0__attn_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    -- the scratch images the two whole-buffer loads found are the canons of the chunk stores before them
    have h58 : sound_kernel.sl.v58 c arg2 arg4 f1 = scr0 (View.read (Elt F) arg2.view f1) :=
      View.readCov_eq_canon' arg4.view (scrL0 (View.read (Elt F) arg2.view f1)) rW.toLoadRect
    have h130 : sound_kernel.sl.v130 c arg2 arg4 f1 = scr1 (View.read (Elt F) arg2.view f1) :=
      View.readCov_eq_canon' arg4.view (scrL1 (View.read (Elt F) arg2.view f1)) rW.toLoadRect
    rw [View.read_writes_eq_canon _ _ _ (coverO _ _)]
    unfold out0_2
    rw [← h58, ← h130]
    rfl
  iexists _; iexists _; isplitr
  swap; · iexact H3
  ipureintro; rfl

/-! ## The pipeline's proof data -/

/-- The proof data of the one pipeline on core `c`: the arrays as the region finds them; after the body at point
    `t` each input's buffer at its block and the output's at `out0_2` of the two input blocks; the invariant the scoped
    rest (the scratch buffer at some contents) and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The invariant spelt out: the scratch buffer whole at some contents, and the generator register at some state. -/
theorem Phi_eq (c : Dev nD) (t : Fin (cfg0.N + 1)) :
    (dats m 0 c).Φ t = iprop((∃ d, owns (c : Thread nD τ) (Memref.whole cc0_scratch0) fullShare d) ∗ ∃ r, prngReg c r) := by
  show Pipeline.ΦA spec0 c = _
  unfold Pipeline.ΦA
  rw [scopedRest0_eq]
  simp only [owns_whole]

/-- The body at any point: the inputs' memrefs hold their blocks, the scratch buffer comes out of the invariant and
    goes back into it, so `sound_kernel` applies; the generator register and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    after0_0, after0_1, after0_2, Phi_eq, Phi_eq]
  iintro ⟨⟨Hs, Hr⟩, Ho, ⟨%d0, H0⟩, ⟨%d1, H1⟩, ⟨%d2, H2⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [Hs]; · iexact Hs
  iintro ⟨H0, H1, H2, Hs⟩
  isplitl [Hs Hr]
  · isplitl [Hs]; · iexact Hs
    iexact Hr
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: the program runs to the end, faults nowhere, and leaves both argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Attn

end
-- ==== Proof.AttnSpec.lean ====
/-
  Codebook attention pooling of one batch entry, on the extended reals, and of a whole batch.

  For a codebook `cb` (20 rows of 256 entries) and one batch entry's patches `pe` (4096 rows of 256 entries):
  the score of codebook row `c` against patch `n` is their inner product; each codebook row's scores are turned into
  weights by the stable softmax along the patches (subtract the row's maximum, taken as a fold of `max` from −∞;
  exponentiate; divide by the row's sum); and the pooled output's entry `(c, d)` is the sum over the patches of the
  weight times the patch's entry `d`.  `G A0 A1` is the array of pooled outputs of all 64 batch entries of `A0`
  against the one codebook `A1`.
-/
import Idealize.ShloMosaic.Lib.ValueIdx
import Idealize.ShloMosaic.PureOps.Ideal

noncomputable section

open scoped BigOperators

namespace Attn

open Idealize.ShloMosaic Idealize.ShloMosaic.ValueIdx

/-- −∞, as the single-precision word a program spells it with. -/
abbrev negInf : EReal := Ideal.ofBits .f32 0xFF800000#32

section Entry
variable (cb : Fin 20 → Fin 256 → EReal) (pe : Fin 4096 → Fin 256 → EReal)

/-- Codebook row `c` against patch `n`. -/
def score (c : Fin 20) (n : Fin 4096) : EReal := ∑ d : Fin 256, cb c d * pe n d
/-- The largest score of codebook row `c`, as the fold of `max` from −∞ over the patches. -/
def rowMax (c : Fin 20) : EReal := (Finset.univ : Finset (Fin 4096)).fold max negInf (fun n => score cb pe c n)
/-- The shifted score, exponentiated. -/
def ex (c : Fin 20) (n : Fin 4096) : EReal := Ideal.exp (score cb pe c n - rowMax cb pe c)
/-- The softmax's denominator of row `c`. -/
def den (c : Fin 20) : EReal := ∑ n : Fin 4096, ex cb pe c n
/-- The attention weight of patch `n` for codebook row `c`. -/
def wt (c : Fin 20) (n : Fin 4096) : EReal := Ideal.div (ex cb pe c n) (den cb pe c)
/-- The pooled output. -/
def pooled (c : Fin 20) (d : Fin 256) : EReal := ∑ n : Fin 4096, wt cb pe c n * pe n d

end Entry

/-- A codebook array as a function of its two coordinates. -/
def cbOf (A1 : (⟨2, ![20, 256]⟩ : Shape).Idx → EReal) : Fin 20 → Fin 256 → EReal := fun c d => A1 (ix2 c d)
/-- Batch entry `b` of a patch array as a function of its two coordinates. -/
def entryOf (A0 : (⟨3, ![64, 4096, 256]⟩ : Shape).Idx → EReal) (b : Fin 64) : Fin 4096 → Fin 256 → EReal := fun n d => A0 (ix3 b n d)

/-- The pooled outputs of every batch entry. -/
def G (A0 : (⟨3, ![64, 4096, 256]⟩ : Shape).Idx → EReal) (A1 : (⟨2, ![20, 256]⟩ : Shape).Idx → EReal) :
    (⟨3, ![64, 20, 256]⟩ : Shape).Idx → EReal :=
  fun i => pooled (cbOf A1) (entryOf A0 ⟨(i 0).val, (i 0).isLt⟩) ⟨(i 1).val, (i 1).isLt⟩ ⟨(i 2).val, (i 2).isLt⟩

theorem G_ix3 (A0 : (⟨3, ![64, 4096, 256]⟩ : Shape).Idx → EReal) (A1 : (⟨2, ![20, 256]⟩ : Shape).Idx → EReal)
    (b : Fin 64) (c : Fin 20) (d : Fin 256) : G A0 A1 (ix3 b c d) = pooled (cbOf A1) (entryOf A0 b) c d := rfl

end Attn

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibMatProdT.lean ====
/-
  A matrix unit's product whose right operand is stored with the contracted axis LAST: for an `n × k` array `A` and an
  `m × k` array `B`, contracting the second axis of both onto the zero accumulator gives, at `(p, q)`, the sum over `l` of
  `A (p, l) * B (q, l)` — the entries of `A · Bᵀ` without the transpose ever being formed.  Also a row maximum: a
  `maximumf` reduction of a rank-2 array along its last axis reads, at row `p`, the fold of `max` from the accumulator's
  value over that row.  Generic extents; indices are built from coordinates.
-/
import Idealize.ShloMosaic.Lib.ValueIdx
import Idealize.ShloMosaic.PureOps.Ideal.Laws

noncomputable section

open scoped BigOperators

namespace MatProdT

open Idealize.ShloMosaic Idealize.ShloMosaic.ValueIdx

/-- The product onto the zero accumulator with both operands contracted along their second axis. -/
theorem matmul_zero_entry_T {n k m : ℕ} {φ₁ φ₂ : FTy}
    (d : DotDims (⟨2, ![n, k]⟩ : Shape) (⟨2, ![m, k]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (j 1).val)
    (hr1 : ∀ (j : (⟨2, ![n, m]⟩ : Shape).Idx) (c : d.contr.Idx), (d.rhsIdx j c 1).val = (c ⟨0, by omega⟩).val)
    (lhs : FVec Ideal (⟨2, ![n, k]⟩ : Shape) φ₁) (rhs : FVec Ideal (⟨2, ![m, k]⟩ : Shape) φ₂) (p : Fin n) (q : Fin m) :
    FloatOps.matmul d prec lhs rhs (constant (F := Ideal) (⟨2, ![n, m]⟩ : Shape) .f32 0x00000000#32) (ix2 p q)
      = ∑ l : Fin k, lhs (ix2 p l) * rhs (ix2 q l) := by
  rw [Ideal.matmul_constant_zero_apply, ← Equiv.sum_comp (contrEquiv1 d k hr hs).symm]
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 q l := funext fun a => Fin.ext (by
    match a with
    | ⟨0, _⟩ => exact hr0 _ _
    | ⟨1, _⟩ => exact (hr1 _ _).trans hk)
  rw [el, er]

/-- A row maximum: the fold of `max` from the accumulator's value over the row's entries. -/
theorem max_ab_1 {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have e : (src ∘ h.lift (ix1 i)) = fun k : Fin b => src (ix2 i k) := funext fun k => congrArg src (funext fun ax => Fin.ext (by
    match ax with | ⟨0, _⟩ => rfl | ⟨1, _⟩ => rfl))
  exact congrArg (fun f => Finset.fold max (Ideal.ofBits φ acc) f (Finset.univ : Finset (Fin b))) e

end MatProdT

end
-- ==== Proof.LibRowStat.lean ====
/-
  A row statistic of a rank-2 array kept as a column and stretched back over the row: the `keepdims` maximum and the
  `keepdims` sum along the last axis, each reshaped `[a] → [a, 1]` and broadcast `[a, 1] → [a, b]`, read at `(p, r)`:
  the fold of `max` from −∞, or the sum, over row `p` — the same at every `r`.  Also the column `[a, 1]` itself read at
  `(p, 0)`.  The arrays are single-precision; the reductions start from the words a program prints for them, the zero
  word for a sum and the word of −∞ for a maximum, and the side conditions are typed as a printed program proves them.
  The exponential and the reciprocal square root of an array of extended reals are taken entry by entry.  Generic
  extents; indices are built from coordinates.
-/
import Idealize.ShloMosaic.Lib.Pipeline.Value
import Idealize.ShloMosaic.Lib.ValueIdx
import Idealize.ShloMosaic.PureOps.Ideal.Laws
import proofs.«130082_j38568806318651_2_alg».proof.Proof.LibLayout
import proofs.«130082_j38568806318651_2_alg».proof.Proof.LibRowCol
import proofs.«130082_j38568806318651_2_alg».proof.Proof.LibMatProdT

noncomputable section

open scoped BigOperators

namespace RowStat

open Idealize.ShloMosaic Idealize.ShloMosaic.ValueIdx

theorem exp_apply {s : Shape} {φ : FTy} (x : FVec Ideal s φ) (i : s.Idx) : exp x i = Ideal.exp (x i) := rfl
theorem rsqrt_apply {s : Shape} {φ : FTy} (x : FVec Ideal s φ) (i : s.Idx) : rsqrt x i = Ideal.rsqrt (x i) := rfl

/-- The row maximum as a column, at `(p, u)`. -/
theorem max_col {a b : ℕ} (z : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32)
    (hc : (⟨1, ![a]⟩ : Shape).ShapeCasts ⟨2, ![a, 1]⟩) (p : Fin a) (u : Fin 1) :
    shapeCast ⟨2, ![a, 1]⟩ (multiReduction .maximumf [1] ⟨1, ![a]⟩ z 0xFF800000#32 hred hφ hacc) hc (ix2 p u)
      = (Finset.univ : Finset (Fin b)).fold max (Ideal.ofBits .f32 0xFF800000#32) (fun k => z (ix2 p k)) :=
  (PushPull.Layout.cast_a_a1 _ hc p u).trans (MatProdT.max_ab_1 z 0xFF800000#32 hred hφ hacc p)

/-- The row sum as a column, at `(p, u)`. -/
theorem sum_col {a b : ℕ} (z : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction .add [1] ⟨1, ![a]⟩ z 0x00000000#32 hred hφ hacc) hc (ix2 p u)
      = ∑ k : Fin b, z (ix2 p k) :=
  (PushPull.Layout.cast_a_a1 _ hc p u).trans (PushPull.Layout.sum_ab_1 z 0x00000000#32 hred hφ hacc p)

/-- The row maximum stretched back over the row, at `(p, r)`. -/
theorem max_back {a b c : ℕ} (z : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, c]⟩) (p : Fin a) (r : Fin c) :
    broadcastTo ⟨2, ![a, c]⟩ (shapeCast ⟨2, ![a, 1]⟩ (multiReduction .maximumf [1] ⟨1, ![a]⟩ z 0xFF800000#32 hred hφ hacc) hc) hb (ix2 p r)
      = (Finset.univ : Finset (Fin b)).fold max (Ideal.ofBits .f32 0xFF800000#32) (fun k => z (ix2 p k)) :=
  (RowCol.broadcastTo_a1_ab_apply _ hb p r).trans (max_col z hred hφ hacc hc p 0)

/-- The row sum stretched back over the row, at `(p, r)`. -/
theorem sum_back {a b c : ℕ} (z : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (hb : (⟨2, ![a, 1]⟩ : Shape).Broadcasts ⟨2, ![a, c]⟩) (p : Fin a) (r : Fin c) :
    broadcastTo ⟨2, ![a, c]⟩ (shapeCast ⟨2, ![a, 1]⟩ (multiReduction .add [1] ⟨1, ![a]⟩ z 0x00000000#32 hred hφ hacc) hc) hb (ix2 p r)
      = ∑ k : Fin b, z (ix2 p k) :=
  (RowCol.broadcastTo_a1_ab_apply _ hb p r).trans (sum_col z hred hφ hacc hc p 0)

end RowStat

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.AttnPayload.lean ====
/-
  What one batch entry's output row holds, at the ideal instance.

  The body's value for a batch entry is computed from the codebook block `v1` (20 x 256) and the entry's scratch image
  `v58` (4096 x 256): the scores are the product of `v1` with the transpose of `v58` (both contracted on their last
  axis, onto a zero accumulator); each row's maximum (a fold of `max` from −∞) is subtracted, the result exponentiated
  and divided by its row sum; and these weights are multiplied into `v58`.  Read entry by entry on the extended
  reals (changes of float format are the identity there) this is the pooled output of the specification.
-/
import proofs.«130082_j38568806318651_2_alg».proof.Proof.Gen.KernelIdeal.Skeleton
import proofs.«130082_j38568806318651_2_alg».proof.Proof.AttnSpec
import proofs.«130082_j38568806318651_2_alg».proof.Proof.LibRowStat
import proofs.«130082_j38568806318651_2_alg».proof.Proof.LibMatProd
import Idealize.ShloMosaic.Lib.ValueLayout

noncomputable section

open scoped BigOperators

namespace Cert.KernelIdeal.AttnValue

open Cert.KernelIdeal Cert.KernelIdeal.Gen
open Idealize.ShloMosaic Idealize.ShloMosaic.ValueIdx

/-! ## The two contractions' index maps -/

/-- Scores: both operands contracted on their last axis. -/
abbrev dT := dot_S20x256_S4096x256_S20x4096_1_1_0_0_n_n
/-- Pooling: the weights' last axis against the patches' first. -/
abbrev dP := dot_S20x4096_S4096x256_S20x256_1_0_0_1_n_n

theorem dT_l0 (j : S20x4096.Idx) (q : dT.contr.Idx) : (dT.lhsIdx j q 0).val = (j 0).val := by
  unfold DotDims.lhsIdx
  rw [dif_neg (show ¬(0 : Fin S20x256.rank) ∈ dT.lhsBatch by decide), dif_pos (show (0 : Fin S20x256.rank) ∈ dT.lhsNonContracting by decide)]
  rfl
theorem dT_l1 (j : S20x4096.Idx) (q : dT.contr.Idx) : (dT.lhsIdx j q 1).val = (q ⟨0, by decide⟩).val :=
  dT.lhsIdx_val_of_single rfl j q
theorem dT_r0 (j : S20x4096.Idx) (q : dT.contr.Idx) : (dT.rhsIdx j q 0).val = (j 1).val := by
  unfold DotDims.rhsIdx
  rw [dif_neg (show ¬(0 : Fin S4096x256.rank) ∈ dT.rhsBatch by decide), dif_pos (show (0 : Fin S4096x256.rank) ∈ dT.rhsNonContracting by decide)]
  rfl
theorem dT_r1 (j : S20x4096.Idx) (q : dT.contr.Idx) : (dT.rhsIdx j q 1).val = (q ⟨0, by decide⟩).val :=
  dT.rhsIdx_val_of_single rfl j q

theorem dP_l0 (j : S20x256.Idx) (q : dP.contr.Idx) : (dP.lhsIdx j q 0).val = (j 0).val := by
  unfold DotDims.lhsIdx
  rw [dif_neg (show ¬(0 : Fin S20x4096.rank) ∈ dP.lhsBatch by decide), dif_pos (show (0 : Fin S20x4096.rank) ∈ dP.lhsNonContracting by decide)]
  rfl
theorem dP_l1 (j : S20x256.Idx) (q : dP.contr.Idx) : (dP.lhsIdx j q 1).val = (q ⟨0, by decide⟩).val :=
  dP.lhsIdx_val_of_single rfl j q
theorem dP_r0 (j : S20x256.Idx) (q : dP.contr.Idx) : (dP.rhsIdx j q 0).val = (q ⟨0, by decide⟩).val :=
  dP.rhsIdx_val_of_single rfl j q
theorem dP_r1 (j : S20x256.Idx) (q : dP.contr.Idx) : (dP.rhsIdx j q 1).val = (j 1).val := by
  unfold DotDims.rhsIdx
  rw [dif_neg (show ¬(1 : Fin S4096x256.rank) ∈ dP.rhsBatch by decide), dif_pos (show (1 : Fin S4096x256.rank) ∈ dP.rhsNonContracting by decide)]
  rfl

/-! ## The stages of one entry's value -/

section Stages
variable (v1 : FVec Ideal S20x256 .bf16) (v58 : FVec Ideal S4096x256 .bf16)

/-- The codebook block and the scratch image as functions of two coordinates. -/
def cbF : Fin 20 → Fin 256 → EReal := fun c d => v1 (ix2 c d)
def peF : Fin 4096 → Fin 256 → EReal := fun n d => v58 (ix2 n d)

/-- The scores, -/
def sc : FVec Ideal S20x4096 .f32 := matmul dT none v1 v58 (constant (F := Ideal) S20x4096 .f32 0x00000000#32)
/-- each row's maximum, stretched back over the row, -/
def mx : FVec Ideal S20x4096 .f32 :=
  broadcastTo S20x4096 (shapeCast S20x1 (multiReduction (F := Ideal) .maximumf [1] S20 (sc v1 v58) 0xFF800000#32 reduces_S20x4096_S20 (.inl rfl) rfl) shapeCasts_S20_S20x1) broadcasts_S20x1_S20x4096
/-- the shifted scores exponentiated, -/
def exv : FVec Ideal S20x4096 .f32 := exp (subf (sc v1 v58) (mx v1 v58))
/-- each row's sum, stretched back over the row, -/
def dn : FVec Ideal S20x4096 .f32 :=
  broadcastTo S20x4096 (shapeCast S20x1 (multiReduction (F := Ideal) .add [1] S20 (exv v1 v58) 0x00000000#32 reduces_S20x4096_S20 (.inl rfl) rfl) shapeCasts_S20_S20x1) broadcasts_S20x1_S20x4096
/-- and the weights. -/
def w : FVec Ideal S20x4096 .bf16 := truncf .bf16 (divf (exv v1 v58) (dn v1 v58)) bitsLt_bf16_f32

theorem sc_apply (c : Fin 20) (n : Fin 4096) : sc v1 v58 (ix2 c n) = Attn.score (cbF v1) (peF v58) c n :=
  MatProdT.matmul_zero_entry_T dT none rfl rfl dT_l0 dT_l1 dT_r0 dT_r1 v1 v58 c n

theorem mx_apply (c : Fin 20) (n : Fin 4096) : mx v1 v58 (ix2 c n) = Attn.rowMax (cbF v1) (peF v58) c := by
  refine (RowStat.max_back (sc v1 v58) reduces_S20x4096_S20 (.inl rfl) rfl shapeCasts_S20_S20x1 broadcasts_S20x1_S20x4096 c n).trans ?_
  unfold Attn.rowMax
  exact congrArg (fun f => Finset.fold max Attn.negInf f (Finset.univ : Finset (Fin 4096))) (funext fun k => sc_apply v1 v58 c k)

theorem exv_apply (c : Fin 20) (n : Fin 4096) : exv v1 v58 (ix2 c n) = Attn.ex (cbF v1) (peF v58) c n := by
  show Ideal.exp (sc v1 v58 (ix2 c n) - mx v1 v58 (ix2 c n)) = _
  rw [sc_apply, mx_apply]; rfl

theorem dn_apply (c : Fin 20) (n : Fin 4096) : dn v1 v58 (ix2 c n) = Attn.den (cbF v1) (peF v58) c := by
  refine (RowStat.sum_back (exv v1 v58) reduces_S20x4096_S20 (.inl rfl) rfl shapeCasts_S20_S20x1 broadcasts_S20x1_S20x4096 c n).trans ?_
  unfold Attn.den
  exact Finset.sum_congr rfl fun k _ => exv_apply v1 v58 c k

theorem w_apply (c : Fin 20) (n : Fin 4096) : w v1 v58 (ix2 c n) = Attn.wt (cbF v1) (peF v58) c n := by
  show Ideal.div (exv v1 v58 (ix2 c n)) (dn v1 v58 (ix2 c n)) = _
  rw [exv_apply, dn_apply]; rfl

/-- One entry's value is the weights multiplied into the scratch image, with a unit axis in front. -/
theorem pay12_eq : k0_pay12 (F := Ideal) v1 v58
    = shapeCast S1x20x256 (matmul dP none (w v1 v58) v58 (constant (F := Ideal) S20x256 .f32 0x00000000#32)) shapeCasts_S20x256_S1x20x256 := rfl
theorem pay21_eq : k0_pay21 (F := Ideal) v1 v58
    = shapeCast S1x20x256 (matmul dP none (w v1 v58) v58 (constant (F := Ideal) S20x256 .f32 0x00000000#32)) shapeCasts_S20x256_S1x20x256 := rfl

/-- Entry `(0, c, d)` of it is the pooled output. -/
theorem pooled_apply (u : Fin 1) (c : Fin 20) (d : Fin 256) :
    shapeCast S1x20x256 (matmul dP none (w v1 v58) v58 (constant (F := Ideal) S20x256 .f32 0x00000000#32)) shapeCasts_S20x256_S1x20x256 (ix3 u c d)
      = Attn.pooled (cbF v1) (peF v58) c d := by
  refine (shapeCast_ab_1ab_apply _ shapeCasts_S20x256_S1x20x256 u c d).trans ?_
  refine (MatProd.matmul_zero_entry dP none rfl rfl dP_l0 dP_l1 dP_r0 dP_r1 (w v1 v58) v58 c d).trans ?_
  unfold MatProd.entry Attn.pooled
  exact Finset.sum_congr rfl fun n _ => by rw [w_apply]; rfl

theorem pay12_apply (u : Fin 1) (c : Fin 20) (d : Fin 256) :
    k0_pay12 (F := Ideal) v1 v58 (ix3 u c d) = Attn.pooled (cbF v1) (peF v58) c d := by
  rw [pay12_eq]; exact pooled_apply v1 v58 u c d
theorem pay21_apply (u : Fin 1) (c : Fin 20) (d : Fin 256) :
    k0_pay21 (F := Ideal) v1 v58 (ix3 u c d) = Attn.pooled (cbF v1) (peF v58) c d := by
  rw [pay21_eq]; exact pooled_apply v1 v58 u c d

end Stages

end Cert.KernelIdeal.AttnValue

end
-- ==== Proof.AttnBlock.lean ====
/-
  The output block one grid point leaves, entry by entry, at the ideal instance.

  A grid point's output block has one row per batch entry g of its patch block.  The scratch image that entry's value
  is computed from is the entry's slab copied chunk by chunk: the eight chunk stores tile the 4096 x 256 buffer and
  each stores the rows it names, rounded — and rounding is the identity on the extended reals — so the image reads, at
  (n, d), the patch block at (g, n, d); the second entry's eight stores cover the buffer again, so nothing of the first
  entry's is left under them.  With the value of one entry from the payload module, row g of the output block is the
  pooled output of the codebook block against entry g of the patch block.
-/
import proofs.«130082_j38568806318651_2_alg».proof.Proof.AttnFrameIdeal
import proofs.«130082_j38568806318651_2_alg».proof.Proof.AttnPayload
import Idealize.ShloMosaic.Lib.Pipeline.Value

set_option maxRecDepth 16384

noncomputable section

open scoped BigOperators

namespace Cert.KernelIdeal.AttnValue

open Cert.KernelIdeal Cert.KernelIdeal.Gen Cert.KernelIdeal.Attn
open Idealize.ShloMosaic Idealize.ShloMosaic.ValueIdx

/-! ## Rounding and same-shape casts are the identity -/

theorem hz2 : (![0, 0] : Fin 2 → Nat) = fun _ => 0 := funext fun a => by fin_cases a <;> rfl

theorem cast512 (v : FVec Ideal S512x256 .bf16) : shapeCast S512x256 v shapeCasts_S512x256_S512x256 = v := shapeCast_self v _

theorem pay2_id (v : Vec Ideal S512x256 .f32) (x : S512x256.Idx) : k0_pay2 (F := Ideal) v x = v x := congrFun (cast512 _) x
theorem pay3_id (v : Vec Ideal S512x256 .f32) (x : S512x256.Idx) : k0_pay3 (F := Ideal) v x = v x := congrFun (cast512 _) x
theorem pay4_id (v : Vec Ideal S512x256 .f32) (x : S512x256.Idx) : k0_pay4 (F := Ideal) v x = v x := congrFun (cast512 _) x
theorem pay65_id (v : Vec Ideal S512x256 .f32) (x : S512x256.Idx) : k0_pay6 (F := Ideal) (k0_pay5 (F := Ideal) v) x = v x := congrFun (cast512 _) x
theorem pay7_id (v : Vec Ideal S512x256 .f32) (x : S512x256.Idx) : k0_pay7 (F := Ideal) v x = v x := congrFun (cast512 _) x
theorem pay8_id (v : Vec Ideal S512x256 .f32) (x : S512x256.Idx) : k0_pay8 (F := Ideal) v x = v x := congrFun (cast512 _) x
theorem pay9_id (v : Vec Ideal S512x256 .f32) (x : S512x256.Idx) : k0_pay9 (F := Ideal) v x = v x := congrFun (cast512 _) x
theorem pay1110_id (v : Vec Ideal S512x256 .f32) (x : S512x256.Idx) : k0_pay11 (F := Ideal) (k0_pay10 (F := Ideal) v) x = v x := congrFun (cast512 _) x
theorem pay13_id (v : Vec Ideal S512x256 .f32) (x : S512x256.Idx) : k0_pay13 (F := Ideal) v x = v x := congrFun (cast512 _) x
theorem pay14_id (v : Vec Ideal S512x256 .f32) (x : S512x256.Idx) : k0_pay14 (F := Ideal) v x = v x := congrFun (cast512 _) x
theorem pay15_id (v : Vec Ideal S512x256 .f32) (x : S512x256.Idx) : k0_pay15 (F := Ideal) v x = v x := congrFun (cast512 _) x
theorem pay16_id (v : Vec Ideal S512x256 .f32) (x : S512x256.Idx) : k0_pay16 (F := Ideal) v x = v x := congrFun (cast512 _) x
theorem pay17_id (v : Vec Ideal S512x256 .f32) (x : S512x256.Idx) : k0_pay17 (F := Ideal) v x = v x := congrFun (cast512 _) x
theorem pay18_id (v : Vec Ideal S512x256 .f32) (x : S512x256.Idx) : k0_pay18 (F := Ideal) v x = v x := congrFun (cast512 _) x
theorem pay19_id (v : Vec Ideal S512x256 .f32) (x : S512x256.Idx) : k0_pay19 (F := Ideal) v x = v x := congrFun (cast512 _) x
theorem pay20_id (v : Vec Ideal S512x256 .f32) (x : S512x256.Idx) : k0_pay20 (F := Ideal) v x = v x := congrFun (cast512 _) x

/-! ## The scratch image -/

/-- The eight chunks tile the buffer, so they cover it (the payloads abstract). -/
theorem coverC (p7 : rC7.shape.Idx → Elt Ideal .bf16) (p6 : rC6.shape.Idx → Elt Ideal .bf16) (p5 : rC5.shape.Idx → Elt Ideal .bf16)
    (p4 : rC4.shape.Idx → Elt Ideal .bf16) (p3 : rC3.shape.Idx → Elt Ideal .bf16) (p2 : rC2.shape.Idx → Elt Ideal .bf16)
    (p1 : rC1.shape.Idx → Elt Ideal .bf16) (p0 : rC0.shape.Idx → Elt Ideal .bf16) (y : S4096x256.Idx) :
    ∃ pc ∈ ([⟨rC7, p7⟩, ⟨rC6, p6⟩, ⟨rC5, p5⟩, ⟨rC4, p4⟩, ⟨rC3, p3⟩, ⟨rC2, p2⟩, ⟨rC1, p1⟩, ⟨rC0, p0⟩] : List (View.Piece (Elt Ideal) S4096x256 .bf16)), y ∈ pc.1.set :=
  View.cover_of_tiled [⟨rC7, p7⟩, ⟨rC6, p6⟩, ⟨rC5, p5⟩, ⟨rC4, p4⟩, ⟨rC3, p3⟩, ⟨rC2, p2⟩, ⟨rC1, p1⟩, ⟨rC0, p0⟩] S512x256.size (by rfl) y

/-- Under a covering list of later stores the earlier stores do not show. -/
theorem canon_append_of_cover {S : Shape} {e : EltTy} (L1 L2 : List (View.Piece (Elt Ideal) S e)) (y : S.Idx) :
    (∃ p ∈ L1, y ∈ p.1.set) → View.canon (L1 ++ L2) y = View.canon L1 y := by
  induction L1 with
  | nil => intro h; obtain ⟨p, hp, _⟩ := h; exact absurd hp List.not_mem_nil
  | cons p L ih =>
    intro h
    by_cases hm : y ∈ p.1.set
    · obtain ⟨r, w⟩ := p
      obtain ⟨x, rfl⟩ : ∃ x, r.emb x = y := r.exists_idx_of_mem hm
      rw [List.cons_append, View.canon_cons_emb, View.canon_cons_emb]
    · rw [List.cons_append, View.canon_cons_of_not_mem _ _ hm, View.canon_cons_of_not_mem _ _ hm]
      refine ih ?_
      obtain ⟨q, hq, hyq⟩ := h
      rcases List.mem_cons.mp hq with rfl | hq'
      · exact absurd hyq hm
      · exact ⟨q, hq', hyq⟩

/-- After entry 0's stores the scratch image is entry 0's slab, -/
theorem scr0_eq (x1 : Vec Ideal S2x4096x256 .f32) : scr0 (F := Ideal) x1 = slab0 (F := Ideal) x1 := by
  have e : scr0 (F := Ideal) x1 = View.ld (View.canon (scrL0 (F := Ideal) x1)) rW := rfl
  rw [e, View.ld_unit_zero (S := S4096x256) hz2]
  funext y
  refine View.canon_apply_of_pieces (slab0 (F := Ideal) x1) (scrL0 (F := Ideal) x1) ?_ y (coverC _ _ _ _ _ _ _ _ y)
  intro p hp x
  unfold scrL0 at hp
  simp only [List.mem_cons, List.not_mem_nil, or_false] at hp
  rcases hp with rfl | rfl | rfl | rfl | rfl | rfl | rfl | rfl
  · exact pay1110_id _ x
  · exact pay9_id _ x
  · exact pay8_id _ x
  · exact pay7_id _ x
  · exact pay65_id _ x
  · exact pay4_id _ x
  · exact pay3_id _ x
  · exact pay2_id _ x

/-- and after entry 1's, entry 1's slab. -/
theorem scr1_eq (x1 : Vec Ideal S2x4096x256 .f32) : scr1 (F := Ideal) x1 = slab1 (F := Ideal) x1 := by
  have e : scr1 (F := Ideal) x1 = View.ld (View.canon (scrL1 (F := Ideal) x1)) rW := rfl
  rw [e, View.ld_unit_zero (S := S4096x256) hz2]
  funext y
  have hs : scrL1 (F := Ideal) x1
      = [⟨rC7, k0_pay20 (View.ld (slab1 x1) rC7)⟩, ⟨rC6, k0_pay19 (View.ld (slab1 x1) rC6)⟩,
         ⟨rC5, k0_pay18 (View.ld (slab1 x1) rC5)⟩, ⟨rC4, k0_pay17 (View.ld (slab1 x1) rC4)⟩,
         ⟨rC3, k0_pay16 (View.ld (slab1 x1) rC3)⟩, ⟨rC2, k0_pay15 (View.ld (slab1 x1) rC2)⟩,
         ⟨rC1, k0_pay14 (View.ld (slab1 x1) rC1)⟩, ⟨rC0, k0_pay13 (View.ld (slab1 x1) rC0)⟩] ++ scrL0 (F := Ideal) x1 := rfl
  rw [hs, canon_append_of_cover _ _ y (coverC _ _ _ _ _ _ _ _ y)]
  refine View.canon_apply_of_pieces (slab1 (F := Ideal) x1) _ ?_ y (coverC _ _ _ _ _ _ _ _ y)
  intro p hp x
  simp only [List.mem_cons, List.not_mem_nil, or_false] at hp
  rcases hp with rfl | rfl | rfl | rfl | rfl | rfl | rfl | rfl
  · exact pay20_id _ x
  · exact pay19_id _ x
  · exact pay18_id _ x
  · exact pay17_id _ x
  · exact pay16_id _ x
  · exact pay15_id _ x
  · exact pay14_id _ x
  · exact pay13_id _ x

/-- A slab at (n, d) is the patch block at (g, n, d). -/
theorem slab0_apply (x1 : Vec Ideal S2x4096x256 .f32) (n : Fin 4096) (d : Fin 256) :
    slab0 (F := Ideal) x1 (ix2 n d) = x1 (ix3 (0 : Fin 2) n d) := by
  unfold slab0
  refine (shapeCast_1ab_ab_apply (View.ld x1 rB0) _ n d).trans ?_
  show x1 (rB0.emb (ix3 (0 : Fin 1) n d)) = _
  refine congrArg x1 (funext fun a => Fin.ext ?_)
  match a with
  | ⟨0, _⟩ => rfl
  | ⟨1, _⟩ => show 0 + 1 * n.val = n.val; omega
  | ⟨2, _⟩ => show 0 + 1 * d.val = d.val; omega
theorem slab1_apply (x1 : Vec Ideal S2x4096x256 .f32) (n : Fin 4096) (d : Fin 256) :
    slab1 (F := Ideal) x1 (ix2 n d) = x1 (ix3 (1 : Fin 2) n d) := by
  unfold slab1
  refine (shapeCast_1ab_ab_apply (View.ld x1 rB1) _ n d).trans ?_
  show x1 (rB1.emb (ix3 (0 : Fin 1) n d)) = _
  refine congrArg x1 (funext fun a => Fin.ext ?_)
  match a with
  | ⟨0, _⟩ => rfl
  | ⟨1, _⟩ => show 0 + 1 * n.val = n.val; omega
  | ⟨2, _⟩ => show 0 + 1 * d.val = d.val; omega

/-! ## The output block -/

/-- The block-level result: row g pools entry g of the patch block. -/
def Gblk (x0 : Vec Ideal S20x256 .f32) (x1 : Vec Ideal S2x4096x256 .f32) : Vec Ideal S2x20x256 .f32 :=
  fun i => Attn.pooled (fun c d => x0 (ix2 c d)) (fun n d => x1 (ix3 ⟨(i 0).val, (i 0).isLt⟩ n d)) ⟨(i 1).val, (i 1).isLt⟩ ⟨(i 2).val, (i 2).isLt⟩

theorem Gblk_ix3 (x0 : Vec Ideal S20x256 .f32) (x1 : Vec Ideal S2x4096x256 .f32) (g : Fin 2) (c : Fin 20) (d : Fin 256) :
    Gblk x0 x1 (ix3 g c d) = Attn.pooled (fun c d => x0 (ix2 c d)) (fun n d => x1 (ix3 g n d)) c d := rfl

theorem cb_eq (x0 : Vec Ideal S20x256 .f32) : cbF (k0_pay1 (F := Ideal) (View.ld x0 rA)) = fun c d => x0 (ix2 c d) := by
  funext c d
  show View.ld x0 rA (ix2 c d) = _
  rw [View.ld_unit_zero (S := S20x256) hz2]

theorem out_eq (x0 : Vec Ideal S20x256 .f32) (x1 : Vec Ideal S2x4096x256 .f32) : out0_2 (F := Ideal) x0 x1 = Gblk x0 x1 := by
  funext y
  unfold out0_2
  refine View.canon_apply_of_pieces (Gblk x0 x1) _ ?_ y (coverO _ _ y)
  intro p hp x
  simp only [List.mem_cons, List.not_mem_nil, or_false] at hp
  rcases hp with rfl | rfl
  · obtain ⟨u, c, d, rfl⟩ : ∃ (u : Fin 1) (c : Fin 20) (d : Fin 256), x = ix3 u c d := ⟨x 0, x 1, x 2, eq_ix3 x⟩
    have hemb : rO1.emb (ix3 u c d) = ix3 (1 : Fin 2) c d := funext fun a => Fin.ext (by
      have hu : u.val = 0 := by omega
      match a with
      | ⟨0, _⟩ => show 1 + 1 * u.val = 1; omega
      | ⟨1, _⟩ => show 0 + 1 * c.val = c.val; omega
      | ⟨2, _⟩ => show 0 + 1 * d.val = d.val; omega)
    show k0_pay21 (F := Ideal) _ _ (ix3 u c d) = Gblk x0 x1 (rO1.emb (ix3 u c d))
    rw [hemb, Gblk_ix3, pay21_apply, cb_eq, scr1_eq]
    exact congrArg (fun pe => Attn.pooled _ pe c d) (funext fun n => funext fun d' => slab1_apply x1 n d')
  · obtain ⟨u, c, d, rfl⟩ : ∃ (u : Fin 1) (c : Fin 20) (d : Fin 256), x = ix3 u c d := ⟨x 0, x 1, x 2, eq_ix3 x⟩
    have hemb : rO0.emb (ix3 u c d) = ix3 (0 : Fin 2) c d := funext fun a => Fin.ext (by
      have hu : u.val = 0 := by omega
      match a with
      | ⟨0, _⟩ => show 0 + 1 * u.val = 0; omega
      | ⟨1, _⟩ => show 0 + 1 * c.val = c.val; omega
      | ⟨2, _⟩ => show 0 + 1 * d.val = d.val; omega)
    show k0_pay12 (F := Ideal) _ _ (ix3 u c d) = Gblk x0 x1 (rO0.emb (ix3 u c d))
    rw [hemb, Gblk_ix3, pay12_apply, cb_eq, scr0_eq]
    exact congrArg (fun pe => Attn.pooled _ pe c d) (funext fun n => funext fun d' => slab0_apply x1 n d')

end Cert.KernelIdeal.AttnValue

end
-- ==== Proof.AttnArray.lean ====
/-
  From the grid points' blocks to the whole result array, and the kernel's run with its result named.

  Point t of the 32 stages rows 2 t, 2 t + 1 of the patch array and the whole codebook, and writes back rows 2 t,
  2 t + 1 of the result array.  So what point t writes back is block t of the array `Attn.G` of pooled outputs of the
  two argument arrays; the 32 blocks cover the result array; hence after the run the result array is `Attn.G` of the
  arguments.
-/
import proofs.«130082_j38568806318651_2_alg».proof.Proof.AttnBlock

set_option maxRecDepth 16384

noncomputable section

open scoped BigOperators

namespace Cert.KernelIdeal.AttnValue

open Cert.KernelIdeal Cert.KernelIdeal.Gen Cert.KernelIdeal.Attn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps, decided over the grid: the codebook's block never moves; the patch block and the
    output block are block t along the batch axis. -/
theorem idx_facts : ∀ t : Fin cfg0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem t_lt (t : Fin cfg0.N) : t.val < 32 := Nat.lt_of_lt_of_eq t.isLt N_0

/-- The codebook's block is the codebook array; -/
theorem iblk0_apply (c : Dev nD) (t : Fin cfg0.N) (cc : Fin 20) (d : Fin 256) :
    iblk m c 0 t (ix2 cc d) = V m c main_arg1 (ix2 cc d) := by
  obtain ⟨e0, e1, -⟩ := idx_facts t
  show V m c main_arg1 (((cfg0.win 0).blk t).view.emb (ix2 cc d)) = V m c main_arg1 (ix2 cc d)
  refine congrArg (V m c main_arg1) (funext fun a => Fin.ext ?_)
  match a with
  | ⟨0, _⟩ => show win0_0.index t (0 : Fin 2) * 20 + 1 * cc.val = cc.val; omega
  | ⟨1, _⟩ => show win0_0.index t (1 : Fin 2) * 256 + 1 * d.val = d.val; omega

/-- entry g of the patch block at point t is batch entry 2 t + g of the patch array. -/
theorem iblk1_apply (c : Dev nD) (t : Fin cfg0.N) (g : Fin 2) (n : Fin 4096) (d : Fin 256) :
    iblk m c 1 t (ix3 g n d) = V m c main_arg0 (ix3 (⟨2 * t.val + g.val, by have := t_lt t; omega⟩ : Fin 64) n d) := by
  obtain ⟨-, -, e0, e1, e2, -⟩ := idx_facts t
  show V m c main_arg0 (((cfg0.win 1).blk t).view.emb (ix3 g n d)) = V m c main_arg0 _
  refine congrArg (V m c main_arg0) (funext fun a => Fin.ext ?_)
  match a with
  | ⟨0, _⟩ => show win0_1.index t (0 : Fin 3) * 2 + 1 * g.val = 2 * t.val + g.val; omega
  | ⟨1, _⟩ => show win0_1.index t (1 : Fin 3) * 4096 + 1 * n.val = n.val; omega
  | ⟨2, _⟩ => show win0_1.index t (2 : Fin 3) * 256 + 1 * d.val = d.val; omega

/-- Row g of the output block at point t is row 2 t + g of the result array. -/
theorem emb2_apply (t : Fin cfg0.N) (g : Fin 2) (cc : Fin 20) (d : Fin 256) :
    ((cfg0.win 2).blk t).view.emb (ix3 g cc d) = ix3 (⟨2 * t.val + g.val, by have := t_lt t; omega⟩ : Fin 64) cc d := by
  obtain ⟨-, -, -, -, -, e0, e1, e2⟩ := idx_facts t
  refine funext fun a => Fin.ext ?_
  match a with
  | ⟨0, _⟩ => show win0_2.index t (0 : Fin 3) * 2 + 1 * g.val = 2 * t.val + g.val; omega
  | ⟨1, _⟩ => show win0_2.index t (1 : Fin 3) * 20 + 1 * cc.val = cc.val; omega
  | ⟨2, _⟩ => show win0_2.index t (2 : Fin 3) * 256 + 1 * d.val = d.val; omega

/-- What point t writes back is block t of the array of pooled outputs of the argument arrays. -/
theorem flushed_eq (c : Dev nD) (t : Fin cfg0.N) :
    (dats m 0 c).flushed 2 t = ((cfg0.win 2).blk t).view.read (Elt Ideal) (Attn.G (V m c main_arg0) (V m c main_arg1)) := by
  show (cfg0.win 2).cut (grid0.coords t) ((dats m 0 c).after 2 t) = _
  rw [after0_2, out_eq]
  funext j
  obtain ⟨g, cc, d, rfl⟩ : ∃ (g : Fin 2) (cc : Fin 20) (d : Fin 256), j = ix3 g cc d := ⟨j 0, j 1, j 2, eq_ix3 j⟩
  show Gblk (iblk m c 0 t) (iblk m c 1 t) (ix3 g cc d) = Attn.G (V m c main_arg0) (V m c main_arg1) (((cfg0.win 2).blk t).view.emb (ix3 g cc d))
  rw [emb2_apply, Attn.G_ix3, Gblk_ix3]
  have h0 : (fun (c' : Fin 20) (d' : Fin 256) => iblk m c 0 t (ix2 c' d')) = Attn.cbOf (V m c main_arg1) :=
    funext fun c' => funext fun d' => iblk0_apply m c t c' d'
  have h1 : (fun (n : Fin 4096) (d' : Fin 256) => iblk m c 1 t (ix3 g n d'))
      = Attn.entryOf (V m c main_arg0) (⟨2 * t.val + g.val, by have := t_lt t; omega⟩ : Fin 64) :=
    funext fun n => funext fun d' => iblk1_apply m c t g n d'
  rw [h0, h1]

/-- An index of the result array is in point t's block iff each coordinate is in the block's range on its axis. -/
theorem mem_blk (t : Fin cfg0.N) (i : S64x20x256.Idx) :
    i ∈ ((cfg0.win 2).blk t).view.set ↔ ∀ a : Fin 3, win0_2.index t a * S2x20x256.size a ≤ (i a).val ∧ (i a).val < win0_2.index t a * S2x20x256.size a + S2x20x256.size a := by
  show i ∈ ((View.whole main_v0).slice (win0_2.rect t)).set ↔ _
  rw [View.set_slice_whole, Rect.mem_set_unit]
  exact Iff.rfl

/-- Every index of the result array is in the block of the point its batch coordinate halves to. -/
theorem cover (i : S64x20x256.Idx) : ∃ t : Fin cfg0.N, (cfg0.win 2).flush t = true ∧ i ∈ ((cfg0.win 2).blk t).view.set := by
  have hi0 : (i 0).val < 64 := (i 0).isLt
  have hi1 : (i 1).val < 20 := (i 1).isLt
  have hi2 : (i 2).val < 256 := (i 2).isLt
  have hN : (i 0).val / 2 < cfg0.N := Nat.lt_of_lt_of_eq (show (i 0).val / 2 < 32 by omega) N_0.symm
  refine ⟨⟨(i 0).val / 2, hN⟩, flush0_2 _, ?_⟩
  obtain ⟨-, -, -, -, -, e0, e1, e2⟩ := idx_facts ⟨(i 0).val / 2, hN⟩
  have e0' : win0_2.index ⟨(i 0).val / 2, hN⟩ (0 : Fin 3) = (i 0).val / 2 := e0
  rw [mem_blk]
  intro a
  match a with
  | ⟨0, _⟩ => show win0_2.index ⟨(i 0).val / 2, hN⟩ (0 : Fin 3) * 2 ≤ (i 0).val ∧ (i 0).val < win0_2.index ⟨(i 0).val / 2, hN⟩ (0 : Fin 3) * 2 + 2; omega
  | ⟨1, _⟩ => show win0_2.index ⟨(i 0).val / 2, hN⟩ (1 : Fin 3) * 20 ≤ (i 1).val ∧ (i 1).val < win0_2.index ⟨(i 0).val / 2, hN⟩ (1 : Fin 3) * 20 + 20; omega
  | ⟨2, _⟩ => show win0_2.index ⟨(i 0).val / 2, hN⟩ (2 : Fin 3) * 256 ≤ (i 2).val ∧ (i 2).val < win0_2.index ⟨(i 0).val / 2, hN⟩ (2 : Fin 3) * 256 + 256; omega

/-- The result array after the run. -/
theorem final (c : Dev nD) : (dats m 0 c).arrAt 2 cfg0.N = Attn.G (V m c main_arg0) (V m c main_arg1) :=
  (dats m 0 c).arrAt_eq_of_cover 2 (Attn.G (V m c main_arg0) (V m c main_arg1)) (fun t _ => flushed_eq m c t) cover

/-- The kernel's run: every weakly fair execution terminates with the result array at the pooled outputs of the
    argument arrays and the arguments unchanged. -/
theorem run : θ_run defs (onTc (τ := τ) (main (F := Ideal))) ⟨m, fun _ => 0, ρ⟩ fun r => ∀ c : Dev nD,
      r.2.mem ((c.tc : Thread nD τ).loc main_v0) = Attn.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c)))⟩)
    (run_main m ρ)

end Cert.KernelIdeal.AttnValue

end
-- ==== Proof.RefRead.lean ====
/-
  The reference, read stage by stage on the extended reals, is the specification's pooled attention.
  The first contraction is the score of a codebook row against a patch (the factors in the other order: the product
  commutes); the transpose puts the patch axis last. The row maximum is the fold of max from −∞ over the patches, and
  taking the maximum with −∞ again changes nothing. The shifted scores are exponentiated, summed from the zero word
  (which is 0), and each exponential is divided by its row's sum: the weights. The last contraction sums, over the
  patches, the weight times the patch's entry: the pooled output of each batch entry against the one codebook.
-/
import proofs.«130082_j38568806318651_2_alg».proof.Proof.Gen.ReferenceIdeal.Read
import proofs.«130082_j38568806318651_2_alg».proof.Proof.AttnSpec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo

variable (x0 : (⟨S64x4096x256, .f32⟩ : BufTy).Contents (Elt Ideal)) (x1 : (⟨S20x256, .f32⟩ : BufTy).Contents (Elt Ideal))

/-- The maximum of −∞ and a value is that value. -/
theorem max_negInf (y : Ideal .f32) : max (Ideal.ofBits .f32 0xFF800000#32) y = y := by
  simp [Ideal.ofBits, Ideal.ieee]

/-- The first contraction at (b, n, c): the score of codebook row c against patch n of batch entry b. -/
theorem v0_at (b : Fin 64) (n : Fin 4096) (c : Fin 20) :
    val_main_v0 (F := Ideal) x0 x1 (ix3 b n c) = Attn.score (Attn.cbOf x1) (Attn.entryOf x0 b) c n := by
  rw [val_main_v0_apply]
  unfold Attn.score Attn.cbOf Attn.entryOf
  refine Finset.sum_congr rfl fun k _ => ?_
  have el : lidx_main_v0 (ix3 b n c) k = ix3 b n k :=
    funext fun a => Fin.ext (by match a with | ⟨0, _⟩ => rfl | ⟨1, _⟩ => rfl | ⟨2, _⟩ => rfl)
  have er : ridx_main_v0 (ix3 b n c) k = ix2 c k :=
    funext fun a => Fin.ext (by match a with | ⟨0, _⟩ => rfl | ⟨1, _⟩ => rfl)
  rw [el, er, mul_comm]

/-- Transposed, at (b, c, n): the same score. -/
theorem v1_at (b : Fin 64) (c : Fin 20) (n : Fin 4096) :
    val_main_v1 (F := Ideal) x0 x1 (ix3 b c n) = Attn.score (Attn.cbOf x1) (Attn.entryOf x0 b) c n := by
  rw [val_main_v1_apply]
  have e : idx_main_v1 (ix3 b c n) = ix3 b n c :=
    funext fun a => Fin.ext (by match a with | ⟨0, _⟩ => rfl | ⟨1, _⟩ => rfl | ⟨2, _⟩ => rfl)
  rw [e, v0_at]

/-- The reduced index (b, c) with patch k put back on the last axis is (b, c, k). -/
theorem lift_ix (h : S64x20x4096.Reduces [2] S64x20) (b : Fin 64) (c : Fin 20) (k : Fin (S64x20x4096.size 2)) :
    h.lift (ix2 b c) k = ix3 b c (⟨k.val, k.isLt⟩ : Fin 4096) := by
  funext a; apply Fin.ext
  match a with | ⟨0, _⟩ => rfl | ⟨1, _⟩ => rfl | ⟨2, _⟩ => rfl

/-- The reduce with a maximum body from −∞ over the patches, at (b, c): the row maximum. -/
theorem v2_at (b : Fin 64) (c : Fin 20) :
    val_main_v2 (F := Ideal) x0 x1 (ix2 b c) = Attn.rowMax (Attn.cbOf x1) (Attn.entryOf x0 b) c := by
  unfold val_main_v2
  have h : S64x20x4096.Reduces [2] S64x20 := by decide
  rw [Host.reduce_eq_fold_single FloatOps.maximumf _ _ reducesTo_S64x20x4096_S64x20_d2 h h_S_]
  have hf : (val_main_v1 (F := Ideal) x0 x1 ∘ h.lift (ix2 b c))
      = fun n : Fin 4096 => Attn.score (Attn.cbOf x1) (Attn.entryOf x0 b) c n :=
    funext fun k => (congrArg (val_main_v1 (F := Ideal) x0 x1) (lift_ix h b c k)).trans (v1_at x0 x1 b c _)
  exact congrArg (fun f => Finset.fold max Attn.negInf f (Finset.univ : Finset (Fin 4096))) hf

/-- The maximum with the broadcast −∞, at (b, c): still the row maximum. -/
theorem v4_at (b : Fin 64) (c : Fin 20) :
    val_main_v4 (F := Ideal) x0 x1 (ix2 b c) = Attn.rowMax (Attn.cbOf x1) (Attn.entryOf x0 b) c := by
  rw [val_main_v4_apply, val_main_v3_apply, val_main_cst_0_apply, v2_at, Ideal.maximumf_def, Ideal.ofBits_def]
  exact max_negInf _

/-- The row maximum broadcast along the patches, at (b, c, n). -/
theorem v6_at (b : Fin 64) (c : Fin 20) (n : Fin 4096) :
    val_main_v6 (F := Ideal) x0 x1 (ix3 b c n) = Attn.rowMax (Attn.cbOf x1) (Attn.entryOf x0 b) c := by
  rw [val_main_v6_apply, val_main_v5_apply]
  have e : idx_main_v5 (idx_main_v6 (ix3 b c n)) = ix2 b c :=
    funext fun a => Fin.ext (by match a with | ⟨0, _⟩ => rfl | ⟨1, _⟩ => rfl)
  rw [e, v4_at]

/-- The shifted score exponentiated, at (b, c, n). -/
theorem v8_at (b : Fin 64) (c : Fin 20) (n : Fin 4096) :
    val_main_v8 (F := Ideal) x0 x1 (ix3 b c n) = Attn.ex (Attn.cbOf x1) (Attn.entryOf x0 b) c n := by
  rw [val_main_v8_apply, val_main_v7_apply, v1_at, v6_at, Ideal.hostUnary_exp_def, Ideal.subf_def]
  rfl

/-- The sum of the exponentials over the patches from the zero word, at (b, c): the denominator. -/
theorem v9_at (b : Fin 64) (c : Fin 20) :
    val_main_v9 (F := Ideal) x0 x1 (ix2 b c) = Attn.den (Attn.cbOf x1) (Attn.entryOf x0 b) c := by
  rw [val_main_v9_apply, val_main_cst_1_apply, Ideal.ofBits_def, Ideal.ofBits_zero_f32, zero_add]
  unfold Attn.den
  refine Finset.sum_congr rfl fun k _ => ?_
  have e : idx_main_v9 (ix2 b c) k = ix3 b c k :=
    funext fun a => Fin.ext (by match a with | ⟨0, _⟩ => rfl | ⟨1, _⟩ => rfl | ⟨2, _⟩ => rfl)
  rw [e, v8_at]

/-- The denominator broadcast along the patches, at (b, c, n). -/
theorem v11_at (b : Fin 64) (c : Fin 20) (n : Fin 4096) :
    val_main_v11 (F := Ideal) x0 x1 (ix3 b c n) = Attn.den (Attn.cbOf x1) (Attn.entryOf x0 b) c := by
  rw [val_main_v11_apply, val_main_v10_apply]
  have e : idx_main_v10 (idx_main_v11 (ix3 b c n)) = ix2 b c :=
    funext fun a => Fin.ext (by match a with | ⟨0, _⟩ => rfl | ⟨1, _⟩ => rfl)
  rw [e, v9_at]

/-- The exponential over the denominator, at (b, c, n): the weight. -/
theorem v12_at (b : Fin 64) (c : Fin 20) (n : Fin 4096) :
    val_main_v12 (F := Ideal) x0 x1 (ix3 b c n) = Attn.wt (Attn.cbOf x1) (Attn.entryOf x0 b) c n := by
  rw [val_main_v12_apply, v8_at, v11_at, Ideal.hostDivf_def]
  rfl

/-- The last contraction at (b, c, d): the pooled output. -/
theorem v13_at (b : Fin 64) (c : Fin 20) (d : Fin 256) :
    val_main_v13 (F := Ideal) x0 x1 (ix3 b c d) = Attn.pooled (Attn.cbOf x1) (Attn.entryOf x0 b) c d := by
  rw [val_main_v13_apply]
  unfold Attn.pooled
  refine Finset.sum_congr rfl fun k _ => ?_
  have el : lidx_main_v13 (ix3 b c d) k = ix3 b c k :=
    funext fun a => Fin.ext (by match a with | ⟨0, _⟩ => rfl | ⟨1, _⟩ => rfl | ⟨2, _⟩ => rfl)
  have er : ridx_main_v13 (ix3 b c d) k = ix3 b k d :=
    funext fun a => Fin.ext (by match a with | ⟨0, _⟩ => rfl | ⟨1, _⟩ => rfl | ⟨2, _⟩ => rfl)
  rw [el, er, v12_at]
  rfl

/-- The reference's result is the pooled output of every batch entry against the codebook. -/
theorem result_eq (x0 : (⟨S64x4096x256, .f32⟩ : BufTy).Contents (Elt Ideal)) (x1 : (⟨S20x256, .f32⟩ : BufTy).Contents (Elt Ideal)) :
    val_main_v13 (F := Ideal) x0 x1 = Attn.G x0 x1 := by
  funext i
  obtain ⟨b, c, d, rfl⟩ : ∃ (b : Fin 64) (c : Fin 20) (d : Fin 256), i = ix3 b c d := ⟨i 0, i 1, i 2, eq_ix3 i⟩
  rw [v13_at, Attn.G_ix3]

end Cert.ReferenceIdeal.RefValue

end
-- ==== Proof.lean ====
/-
  Codebook cross-attention pooling, a tiled kernel against its jnp reference: the proof of `Cert.Claim`.

  The kernel handles two batch entries per grid point: it copies each entry's 4096 x 256 patches into a scratch
  buffer (rounded to bf16, which is the identity on the extended reals), multiplies the codebook into the transposed
  copy, takes a stable softmax along the patches, and multiplies the weights into the copy.  The reference contracts
  the whole batch at once with the same softmax between the two contractions.  On the extended reals both compute, for
  every batch entry b, codebook row c and feature d, the sum over the patches of the softmax weight of (c, patch) times
  the patch's feature d (`Attn.G`); the two sides differ only in the order of the factors of the first product and in a
  second maximum with −∞, so no finiteness is used.
  The three frames: the kernel's body is run once, for any float instance, over the staging buffers and the scratch
  buffer (one module per instance); the reference's frame is its run with the result dropped.  The ideal pass rewrote
  nothing, so `preserves` is trivial.  The value claim sets the kernel's run, with the result array read block by
  block as `Attn.G` of the arguments, beside the reference's run, whose result is read stage by stage as the same array.
-/
import proofs.«130082_j38568806318651_2_alg».proof.Defs
import proofs.«130082_j38568806318651_2_alg».proof.Proof.Gen.Kernel
import proofs.«130082_j38568806318651_2_alg».proof.Proof.Gen.KernelIdeal
import proofs.«130082_j38568806318651_2_alg».proof.Proof.Gen.ReferenceIdeal
import proofs.«130082_j38568806318651_2_alg».proof.Proof.Gen.Pre_finite_inputs
import proofs.«130082_j38568806318651_2_alg».proof.Proof.Gen.ReferenceIdeal.Run
import proofs.«130082_j38568806318651_2_alg».proof.Proof.AttnFrameBits
import proofs.«130082_j38568806318651_2_alg».proof.Proof.AttnArray
import proofs.«130082_j38568806318651_2_alg».proof.Proof.RefRead
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments unchanged. -/
theorem frame_k : Cert.frame_Kernel := fun m ρ _ => Cert.Kernel.Attn.frame m ρ
/-- So does its idealization. -/
theorem frame_ki : Cert.frame_KernelIdeal := fun m ρ _ => Cert.KernelIdeal.Attn.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at the pooled outputs of the
    arguments: the kernel's blocks assembled, the reference's stages composed. -/
theorem algebraic : Cert.algebraic_KernelIdeal_ReferenceIdeal := by
  intro m ρ m' ρ' _ hagree
  refine ⟨fun c => Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
